-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x128 : Shape := ⟨2, ![128, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S4096x128 .f32) (main_arg1 : FVec F S4096x4096 .f32) (main_arg2 : FVec F S128x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S4096x128 : Shape := ⟨2, ![4096, 128]⟩
abbrev S4096x4096 : Shape := ⟨2, ![4096, 4096]⟩
abbrev S128x128 : Shape := ⟨2, ![128, 128]⟩
abbrev S512x4096 : Shape := ⟨2, ![512, 4096]⟩
abbrev S512x128 : Shape := ⟨2, ![512, 128]⟩

abbrev nBuf : Space → Nat
  | .hbm => 4
  | .vmem => 6
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x128, .f32⟩
  | .hbm, ⟨3, _⟩ => ⟨S4096x128, .f32⟩
  | .local _ .vmem, ⟨0, _⟩ => ⟨S4096x128, .f32⟩
  | .local _ .vmem, ⟨1, _⟩ => ⟨S128x128, .f32⟩
  | .local _ .vmem, ⟨2, _⟩ => ⟨S512x4096, .f32⟩
  | .local _ .vmem, ⟨3, _⟩ => ⟨S512x4096, .f32⟩
  | .local _ .vmem, ⟨4, _⟩ => ⟨S512x128, .f32⟩
  | .local _ .vmem, ⟨5, _⟩ => ⟨S512x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S512x4096_S512x4096_0_0 : ∀ a, (![0, 0] : Fin 2 → Nat) a + S512x4096.size a ≤ S512x4096.size a
  h_S512x4096 : 0 < S512x4096.numel
  natLt_1_32 : 1 < 32
  inb_S4096x128_S4096x128_0_0 : ∀ a, (![0, 0] : Fin 2 → Nat) a + S4096x128.size a ≤ S4096x128.size a
  h_S4096x128 : 0 < S4096x128.numel
  inb_S128x128_S128x128_0_0 : ∀ a, (![0, 0] : Fin 2 → Nat) a + S128x128.size a ≤ S128x128.size a
  h_S128x128 : 0 < S128x128.numel
  inb_S512x128_S512x128_0_0 : ∀ a, (![0, 0] : Fin 2 → Nat) a + S512x128.size a ≤ S512x128.size a
  h_S512x128 : 0 < S512x128.numel
  dot_S512x4096_S4096x128_S512x128_1_0_0_1_n_n_wf : DotDims.WF S512x4096 S4096x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .f32 = 32 ∨ (Rect.block (s := S4096x4096) S512x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S4096x128.size a
  hwx0_3 : ∀ i : grid0.Coords, EltTy.bits .f32 = 32 ∨ (Rect.block (s := S4096x128) S512x128.size (cc0_transform_3 i) (hinb0_3 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg0) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x128 : Shape := ⟨2, ![4096, 128]⟩
abbrev S4096x4096 : Shape := ⟨2, ![4096, 4096]⟩
abbrev S128x128 : Shape := ⟨2, ![128, 128]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x128, .f32⟩
  | .hbm, ⟨3, _⟩ => ⟨S4096x128, .f32⟩
  | .hbm, ⟨4, _⟩ => ⟨S_, .f32⟩
  | .hbm, ⟨5, _⟩ => ⟨S4096x4096, .f32⟩
  | .hbm, ⟨6, _⟩ => ⟨S4096x4096, .i1⟩
  | .hbm, ⟨7, _⟩ => ⟨S4096x4096, .f32⟩
  | .hbm, ⟨8, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S4096x128_S128x128_S4096x128_1_0_0_1_n_n_wf : DotDims.WF S4096x128 S128x128 S4096x128 [1] [0] [0] [1] [] []
  dot_S4096x4096_S4096x128_S4096x128_1_0_0_1_n_n_wf : DotDims.WF S4096x4096 S4096x128 S4096x128 [1] [0] [0] [1] [] []

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.LibFiniteEntries.lean ====
/-
  "Every float input is finite", read back at the ideal values. A precondition of that kind says of an array that the
  join by "and", over all its entries, of the comparisons |entry| < +∞ is the bit 1. Then every one of the comparisons
  is 1, and an extended real x with max(x, −x) < +∞ is neither +∞ nor −∞: it is a real number. `allReal_of_join` is
  that statement for one array of any shape, `AllReal` the property it yields; `coe_sum` says that the inclusion of
  the reals in the extended reals carries a finite sum to the sum of the images (which lets an identity between finite
  sums of real entries be proved over the reals).
-/
import Idealize.ShloMosaic.Lib.ReduceAll
import Idealize.ShloMosaic.Lib.ValueIdx
import Idealize.ShloMosaic.PureOps.Ideal.Laws

noncomputable section

namespace Cert.LibFiniteEntries

open Idealize.ShloMosaic

/-- Every entry of an array of extended reals is a real number. -/
def AllReal {s : Shape} (v : s.Idx → EReal) : Prop := ∀ i, ∃ r : ℝ, v i = (r : EReal)

/-- The inclusion of the reals in the extended reals carries a finite sum to the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An array with no axes has one index. -/
instance : Subsingleton (⟨0, ![]⟩ : Shape).Idx := ⟨fun a b => funext fun d => d.elim0⟩

/-- The word 0x7F800000 denotes +∞. -/
theorem bound_is_top : Ideal.ofBits .f32 0x7F800000#32 = (⊤ : EReal) := by simp [Ideal.ofBits, Ideal.ieee]

/-- An extended real whose absolute value max(x, −x) is below +∞ is a real number. -/
theorem real_of_abs_lt_top (x : EReal) (h : Ideal.cmp .olt (max x (-x)) (Ideal.ofBits .f32 0x7F800000#32) = 1#1) :
    ∃ r : ℝ, x = (r : EReal) := by
  rw [bound_is_top] at h
  have hlt : max x (-x) < ⊤ := by
    unfold Ideal.cmp at h
    by_contra hn
    simp [hn] at h
  induction x using EReal.rec with
  | bot => simp at hlt
  | coe r => exact ⟨r, rfl⟩
  | top => simp at hlt

/-- One array's share of a finiteness precondition: if the join by "and" of |entry| < +∞ over all entries is 1, every
    entry is real. -/
theorem allReal_of_join {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (h : Host.reduce IntOp.andi
      (cmpf .olt (Host.absf x) (broadcastInDim s ![] hb (constant ⟨0, ![]⟩ .f32 0x7F800000#32)))
      (constantI ⟨0, ![]⟩ 1 1#1) hr hu ValueIdx.ix0 = 1#1) : AllReal x := fun i =>
  real_of_abs_lt_top (x i) (Host.reduce_andi_all _ _ hr hu ValueIdx.ix0 h i)

end Cert.LibFiniteEntries

end
-- ==== Proof.NeighbourSum.lean ====
/-
  One step of a graph convolution as ONE function of its three arrays. The adjacency array marks, for node i, which
  nodes j are its neighbours (the entry is not zero); every node's feature row x[j, ·] is sent through the linear map w,
  and node i receives the sum of its neighbours' images:

      out[i, l] = Σ_j edge(adj[i, j]) · Σ_k x[j, k] · w[k, l].

  The other arrangement sums the neighbours' raw rows first and applies the linear map once:

      out[i, l] = Σ_k (Σ_j edge(adj[i, j]) · x[j, k]) · w[k, l].

  When the features and the weights are real numbers the two are the same number: a product distributes over a finite
  sum of reals, and a finite double sum may be taken in either order. On the extended reals this needs the entries to
  be real (a product does not distribute over a sum that meets both infinities), which is where finiteness of the
  inputs is used; the edge indicator is 0 or 1 whatever the adjacency entry is.
-/
import Idealize.ShloMosaic.Lib.ValueIdx
import Idealize.ShloMosaic.PureOps.Ideal
import proofs.«107348_g36532991820137_cont_8to1_b_609_13_alg».proof.Proof.LibFiniteEntries

noncomputable section

namespace Cert.NeighbourSum

open Idealize.ShloMosaic Idealize.ShloMosaic.ValueIdx Cert.LibFiniteEntries

/-- The edge indicator of an adjacency entry: the real number 1 where the entry is not zero, 0 where it is. -/
def edge (a : EReal) : EReal := ((if a = 0 then 0 else 1 : ℝ) : EReal)

/-- What node p receives as its new feature q: the images under w of the rows of p's neighbours, summed. -/
def received (x : FVec Ideal ⟨2, ![4096, 128]⟩ .f32) (adj : FVec Ideal ⟨2, ![4096, 4096]⟩ .f32)
    (w : FVec Ideal ⟨2, ![128, 128]⟩ .f32) (p : Fin 4096) (q : Fin 128) : EReal :=
  ∑ j : Fin 4096, edge (adj (ix2 p j)) * ∑ k : Fin 128, x (ix2 j k) * w (ix2 k q)

/-- The whole result array: entry (p, q) is what node p receives as feature q. -/
def aggregate (x : FVec Ideal ⟨2, ![4096, 128]⟩ .f32) (adj : FVec Ideal ⟨2, ![4096, 4096]⟩ .f32)
    (w : FVec Ideal ⟨2, ![128, 128]⟩ .f32) : FVec Ideal ⟨2, ![4096, 128]⟩ .f32 :=
  fun i => received x adj w (i 0) (i 1)

theorem aggregate_entry (x : FVec Ideal ⟨2, ![4096, 128]⟩ .f32) (adj : FVec Ideal ⟨2, ![4096, 4096]⟩ .f32)
    (w : FVec Ideal ⟨2, ![128, 128]⟩ .f32) (p : Fin 4096) (q : Fin 128) :
    aggregate x adj w (ix2 p q) = received x adj w p q := rfl

/-- Over the reals: summing weighted rows and then applying the linear map is applying the map to each row and then
    summing with the same weights. -/
theorem regroup_real {J K : Type*} [Fintype J] [Fintype K] (e : J → ℝ) (X : J → K → ℝ) (W : K → ℝ) :
    ∑ k, (∑ j, e j * X j k) * W k = ∑ j, e j * ∑ k, X j k * W k := by
  simp only [Finset.sum_mul, Finset.mul_sum]
  rw [Finset.sum_comm]
  exact Finset.sum_congr rfl fun j _ => Finset.sum_congr rfl fun k _ => by ring

/-- The same on the extended reals, for real rows and a real linear map, weighted by edge indicators. -/
theorem regroup {J K : Type*} [Fintype J] [Fintype K] (a : J → EReal) (X : J → K → EReal) (W : K → EReal)
    (hX : ∀ j k, ∃ r : ℝ, X j k = (r : EReal)) (hW : ∀ k, ∃ r : ℝ, W k = (r : EReal)) :
    ∑ k, (∑ j, edge (a j) * X j k) * W k = ∑ j, edge (a j) * ∑ k, X j k * W k := by
  choose xr hx using hX
  choose wr hw using hW
  simp only [hx, hw, edge, ← EReal.coe_mul, ← coe_sum]
  exact congrArg _ (regroup_real _ _ _)

end Cert.NeighbourSum

end
-- ==== Proof.RealInputs.lean ====
/-
  The precondition says of each of the three float arrays that every entry's absolute value is below +∞, the three
  statements joined by "and" into one bit that is 1. So each of the three is 1, and each says that every entry of its
  array is a real number: the features, the adjacency array and the weights are arrays of reals.
-/
import proofs.«107348_g36532991820137_cont_8to1_b_609_13_alg».proof.Pre_finite_inputs
import proofs.«107348_g36532991820137_cont_8to1_b_609_13_alg».proof.Proof.Gen.Pre_finite_inputs
import proofs.«107348_g36532991820137_cont_8to1_b_609_13_alg».proof.Proof.LibFiniteEntries

noncomputable section

namespace Cert.RealInputs

open Cert.Pre_finite_inputs Cert.LibFiniteEntries Idealize.ShloMosaic

/-- Under the precondition every entry of the features, of the adjacency array and of the weights is a real number. -/
theorem all_real (x0 : FVec Ideal S4096x128 .f32) (x1 : FVec Ideal S4096x4096 .f32) (x2 : FVec Ideal S128x128 .f32)
    (h : fn (F := Ideal) x0 x1 x2 = fun _ => 1#1) : AllReal x0 ∧ AllReal x1 ∧ AllReal x2 := by
  have h0 := congrFun h ValueIdx.ix0
  dsimp only [fn] at h0
  obtain ⟨h01, h2⟩ := IntOp.andi_eq_one.1 h0
  obtain ⟨h0', h1⟩ := IntOp.andi_eq_one.1 h01
  exact ⟨allReal_of_join x0 _ _ _ h0', allReal_of_join x1 _ _ _ h1, allReal_of_join x2 _ _ _ h2⟩

end Cert.RealInputs

end
-- ==== Proof.Indicator.lean ====
/-
  The two spellings of the edge indicator. One program compares the adjacency entry with zero by "unordered or not
  equal" and reads the resulting bit as an unsigned integer; the other compares by "ordered and not equal", widens the
  bit to 32 bits with zeros and reads the result as a signed integer. On the extended reals there is no unordered
  pair, so both comparisons are a ≠ 0; the bit is 1 or 0, a zero-extended 0 or 1 is non-negative, and both readings
  give the real number 1 or 0: the edge indicator.
-/
import proofs.«107348_g36532991820137_cont_8to1_b_609_13_alg».proof.Proof.NeighbourSum
import Idealize.ShloMosaic.PureOps.Ideal.Laws

noncomputable section

namespace Cert.NeighbourSum

open Idealize.ShloMosaic

/-- "Unordered or not equal to the zero word", read unsigned, is the edge indicator. -/
theorem edge_of_unsigned (a : EReal) :
    FloatOps.uitofp (F := Ideal) .f32 (FloatOps.cmpf (F := Ideal) (φ := .f32) .une a (Ideal.ofBits .f32 0x00000000#32))
      = edge a := by
  rw [Ideal.ofBits_zero_f32]
  show (((Ideal.cmp .une a 0).toNat : ℝ) : EReal) = edge a
  unfold edge Ideal.cmp
  by_cases h : a = 0 <;> simp [h]

/-- "Ordered and not equal to the zero word", widened with zeros to 32 bits and read signed, is the edge indicator. -/
theorem edge_of_signed (a : EReal) :
    FloatOps.sitofp (F := Ideal) .f32
        ((FloatOps.cmpf (F := Ideal) (φ := .f32) .one a (Ideal.ofBits .f32 0x00000000#32)).setWidth 32)
      = edge a := by
  rw [Ideal.ofBits_zero_f32]
  show (((BitVec.setWidth 32 (Ideal.cmp .one a 0)).toInt : ℝ) : EReal) = edge a
  unfold edge Ideal.cmp
  by_cases h : a = 0 <;> simp [h]

end Cert.NeighbourSum

end
-- ==== Proof.ReferenceSide.lean ====
/-
  The reference program's result is the neighbour sum. Its last stage is a rows-by-columns product whose left factor is
  the array of edge indicators (adjacency compared with zero, the bit read unsigned) and whose right factor is the
  product of the features with the weights; read at an entry (i, l) that is
  Σ_j edge(adj[i, j]) · Σ_k x[j, k] · w[k, l], term by term the specification.
-/
import proofs.«107348_g36532991820137_cont_8to1_b_609_13_alg».proof.Proof.Gen.ReferenceIdeal.Read
import proofs.«107348_g36532991820137_cont_8to1_b_609_13_alg».proof.Proof.NeighbourSum
import proofs.«107348_g36532991820137_cont_8to1_b_609_13_alg».proof.Proof.Indicator

noncomputable section

namespace Cert.ReferenceIdeal.Neighbours

open Cert.ReferenceIdeal Cert.ReferenceIdeal.Gen Cert.ReferenceIdeal.Read Cert.NeighbourSum
open Idealize.ShloMosaic Idealize.ShloMosaic.ValueIdx

/-- The left factor's entry for output entry (p, q) and contracted coordinate j sits at row p, column j. -/
theorem left_entry (p : Fin 4096) (q : Fin 128) (j : Fin 4096) : lidx_main_v4 (ix2 p q) j = ix2 p j :=
  funext fun a => Fin.ext (by match a with | ⟨0, _⟩ => rfl | ⟨1, _⟩ => rfl)

/-- The right factor's entry for output entry (p, q) and contracted coordinate j sits at row j, column q. -/
theorem right_entry (p : Fin 4096) (q : Fin 128) (j : Fin 4096) : ridx_main_v4 (ix2 p q) j = ix2 j q :=
  funext fun a => Fin.ext (by match a with | ⟨0, _⟩ => rfl | ⟨1, _⟩ => rfl)

/-- In the inner product (features by weights) at entry (j, l): the feature at row j, column k. -/
theorem inner_left_entry (j : Fin 4096) (l : Fin 128) (k : Fin 128) : lidx_main_v0 (ix2 j l) k = ix2 j k :=
  funext fun a => Fin.ext (by match a with | ⟨0, _⟩ => rfl | ⟨1, _⟩ => rfl)

/-- and the weight at row k, column l. -/
theorem inner_right_entry (j : Fin 4096) (l : Fin 128) (k : Fin 128) : ridx_main_v0 (ix2 j l) k = ix2 k l :=
  funext fun a => Fin.ext (by match a with | ⟨0, _⟩ => rfl | ⟨1, _⟩ => rfl)

/-- The array of edge indicators, as the reference computes it, at an entry. -/
theorem indicator_entry (adj : (⟨S4096x4096, .f32⟩ : BufTy).Contents (Elt Ideal)) (i : S4096x4096.Idx) :
    val_main_v3 (F := Ideal) adj i = edge (adj i) := by
  rw [val_main_v3_apply, val_main_v2_apply, val_main_v1_apply, val_main_cst_apply]
  exact edge_of_unsigned (adj i)

/-- The reference's result is the neighbour sum of its three arguments. -/
theorem result_eq (x : (⟨S4096x128, .f32⟩ : BufTy).Contents (Elt Ideal)) (adj : (⟨S4096x4096, .f32⟩ : BufTy).Contents (Elt Ideal))
    (w : (⟨S128x128, .f32⟩ : BufTy).Contents (Elt Ideal)) :
    val_main_v4 (F := Ideal) x adj w = aggregate x adj w := by
  funext i
  obtain ⟨p, q, rfl⟩ : ∃ (p : Fin 4096) (q : Fin 128), i = ix2 p q := ⟨i 0, i 1, eq_ix2 i⟩
  rw [val_main_v4_apply, aggregate_entry]
  unfold received
  refine Finset.sum_congr rfl fun j _ => ?_
  rw [left_entry, right_entry, indicator_entry, val_main_v0_apply]
  simp only [inner_left_entry, inner_right_entry]

end Cert.ReferenceIdeal.Neighbours

end
-- ==== Proof.LibDot.lean ====
/-
  A rows-by-columns matrix product `[M,K] · [K,N]` read at an entry, at the ideal values: entry (i, j) is the sum over
  the contracted coordinate k of L(i,k) · R(k,j) — for the host's `dot_general` and for a kernel's `tpu.matmul`
  accumulated into a zero splat alike, whatever witness of well-formedness the dimension record carries. From it: the
  rows `o … o+m-1` of a product are the product of those rows of the left operand.
-/
import Idealize.ShloMosaic.Lib.ValueIdx
import Idealize.ShloMosaic.PureOps.Ideal.Laws
import Idealize.ShloMosaic.Lib.KernelVsHost

noncomputable section

namespace Cert.LibDot

open Idealize.ShloMosaic Idealize.ShloMosaic.ValueIdx

variable {M K N : Nat} {φ₁ φ₂ : FTy}

/-- The dimension record of a rows-by-columns product: the left operand contracted on its axis 1, the right on its
    axis 0, no batch axis. -/
abbrev rc (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ := ⟨[1], [0], [0], [1], [], [], wf⟩

/-- The host's product at entry (i, j). -/
theorem hostDot_apply (wf : DotDims.WF (⟨2, ![M, K]⟩ : Shape) ⟨2, ![K, N]⟩ ⟨2, ![M, N]⟩ [1] [0] [0] [1] [] [])
    (L : FVec Ideal ⟨2, ![M, K]⟩ φ₁) (R : FVec Ideal ⟨2, ![K, N]⟩ φ₂) (i : Fin M) (j : Fin N) :
    Host.dotGeneral (rc wf) none L R (ix2 i j) = ∑ k : Fin K, L (ix2 i k) * R (ix2 k j) := by
  simp only [Host.dotGeneral]
  rw [Ideal.dotGeneral_apply, ← Equiv.sum_comp (contrEquiv1 (rc wf) K rfl rfl).symm]
  refine Finset.sum_congr rfl fun k _ => ?_
  have hk := contrEquiv1_symm_val (rc wf) K rfl rfl k
  have el : (rc wf).lhsIdx (ix2 i j) ((contrEquiv1 (rc wf) K rfl rfl).symm k) = ix2 i k := funext fun a => Fin.ext (by
    match a with
    | ⟨0, _⟩ => rfl
    | ⟨1, _⟩ => exact ((rc wf).lhsIdx_val_of_single rfl _ _).trans hk)
  have er : (rc wf).rhsIdx (ix2 i j) ((contrEquiv1 (rc wf) K rfl rfl).symm k) = ix2 k j := funext fun a => Fin.ext (by
    match a with
    | ⟨0, _⟩ => exact ((rc wf).rhsIdx_val_of_single rfl _ _).trans hk
    | ⟨1, _⟩ => rfl)
  rw [el, er]

/-- A kernel's product into a zero accumulator at entry (i, j): the same sum. -/
theorem matmulZero_apply (wf : DotDims.WF (⟨2, ![M, K]⟩ : Shape) ⟨2, ![K, N]⟩ ⟨2, ![M, N]⟩ [1] [0] [0] [1] [] [])
    (L : FVec Ideal ⟨2, ![M, K]⟩ φ₁) (R : FVec Ideal ⟨2, ![K, N]⟩ φ₂) (i : Fin M) (j : Fin N) :
    matmul (rc wf) none L R (constant ⟨2, ![M, N]⟩ .f32 0x00000000#32) (ix2 i j) = ∑ k : Fin K, L (ix2 i k) * R (ix2 k j) := by
  rw [matmul_zero_eq_dotGeneral]
  exact hostDot_apply wf L R i j

end Cert.LibDot

end
-- ==== Proof.KernelBody.lean ====
/-
  What the kernel's body stores, read at an entry. At a grid point the body holds 512 rows of the adjacency array, all
  of the features and all of the weights. It turns the adjacency rows into edge indicators (compared with zero, the bit
  widened and read signed), multiplies the indicator rows by the features — entry (p, k) of that product is
  Σ_j edge(adj[p, j]) · x[j, k], the k-th feature summed over p's neighbours — and multiplies the result by the
  weights. Both products start from a zero accumulator, so each is a plain rows-by-columns product. Entry (p, q) of what
  is stored is therefore Σ_k (Σ_j edge(adj[p, j]) · x[j, k]) · w[k, q]: neighbours summed first, the linear map applied
  once.
-/
import proofs.«107348_g36532991820137_cont_8to1_b_609_13_alg».proof.Proof.Gen.KernelIdeal.Skeleton
import proofs.«107348_g36532991820137_cont_8to1_b_609_13_alg».proof.Proof.NeighbourSum
import proofs.«107348_g36532991820137_cont_8to1_b_609_13_alg».proof.Proof.Indicator
import proofs.«107348_g36532991820137_cont_8to1_b_609_13_alg».proof.Proof.LibDot

noncomputable section

namespace Cert.KernelIdeal.Neighbours

open Cert.KernelIdeal Cert.KernelIdeal.Gen Cert.NeighbourSum Cert.LibFiniteEntries
open Idealize.ShloMosaic Idealize.ShloMosaic.ValueIdx

/-- Entry (p, q) of the stored block, from the body's three loads: the summed-then-mapped arrangement. -/
theorem stored_entry (a : Vec Ideal S512x4096 .f32) (x : Vec Ideal S4096x128 .f32) (w : Vec Ideal S128x128 .f32)
    (p : Fin 512) (q : Fin 128) :
    k0_pay1 (F := Ideal) a x w (ix2 p q)
      = ∑ k : Fin 128, (∑ j : Fin 4096, edge (a (ix2 p j)) * x (ix2 j k)) * w (ix2 k q) := by
  unfold k0_pay1
  refine (Cert.LibDot.matmulZero_apply Facts₀.dot_S512x128_S128x128_S512x128_1_0_0_1_n_n_wf _ w p q).trans ?_
  refine Finset.sum_congr rfl fun k _ => ?_
  refine congrArg (· * w (ix2 k q)) ?_
  refine (Cert.LibDot.matmulZero_apply Facts₀.dot_S512x4096_S4096x128_S512x128_1_0_0_1_n_n_wf _ x p k).trans ?_
  refine Finset.sum_congr rfl fun j _ => ?_
  exact congrArg (· * x (ix2 j k)) (edge_of_signed (a (ix2 p j)))

/-- With real features and real weights that entry is the mapped-then-summed arrangement: each neighbour's row sent
    through the linear map, the images summed. -/
theorem stored_entry_regrouped (a : Vec Ideal S512x4096 .f32) (x : Vec Ideal S4096x128 .f32) (w : Vec Ideal S128x128 .f32)
    (hx : AllReal x) (hw : AllReal w) (p : Fin 512) (q : Fin 128) :
    k0_pay1 (F := Ideal) a x w (ix2 p q)
      = ∑ j : Fin 4096, edge (a (ix2 p j)) * ∑ k : Fin 128, x (ix2 j k) * w (ix2 k q) := by
  rw [stored_entry]
  exact regroup (fun j => a (ix2 p j)) (fun j k => x (ix2 j k)) (fun k => w (ix2 k q))
    (fun j k => hx (ix2 j k)) (fun k => hw (ix2 k q))

end Cert.KernelIdeal.Neighbours

end
-- ==== Proof.KernelResult.lean ====
/-
  The kernel's result array, whole. The grid has 8 points; point t holds rows 512·t … 512·t + 511 of the adjacency
  array (all 4096 columns), all of the features and all of the weights, and writes back rows 512·t … 512·t + 511 of the
  result. Row p of what point t stores depends on row 512·t + p of the adjacency array only, so — with real features
  and real weights — entry (p, q) of the stored block is what node 512·t + p receives as feature q: the block is the
  restriction of the neighbour sum to those rows. The 8 row blocks tile the 4096 rows (row r lies in block r / 512), so
  after the run the result array is the neighbour sum of the three argument arrays.
-/
import proofs.«107348_g36532991820137_cont_8to1_b_609_13_alg».proof.Proof.Gen.KernelIdeal.Value
import proofs.«107348_g36532991820137_cont_8to1_b_609_13_alg».proof.Proof.KernelBody

noncomputable section

namespace Cert.KernelIdeal.Neighbours

open Cert.KernelIdeal Cert.KernelIdeal.Gen Cert.NeighbourSum Cert.LibFiniteEntries
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The body reads and writes its buffers whole: every access starts at offset zero on both axes. -/
theorem zero_offsets : (![0, 0] : Fin 2 → Nat) = fun _ => 0 := funext fun a => by fin_cases a <;> rfl

/-- The block each window shows at grid point t: features and weights always block (0, 0) — the whole array —, the
    adjacency array and the result row block t. -/
theorem block_indices : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry (p, q) of what the body stores, when its adjacency rows are rows P … of an array A (row p is row P of A) and
    its other two loads are real arrays X and W: what node P receives as feature q. -/
theorem block_entry (a : Vec Ideal S512x4096 .f32) (x : Vec Ideal S4096x128 .f32) (w : Vec Ideal S128x128 .f32)
    (X : FVec Ideal ⟨2, ![4096, 128]⟩ .f32) (A : FVec Ideal ⟨2, ![4096, 4096]⟩ .f32) (W : FVec Ideal ⟨2, ![128, 128]⟩ .f32)
    (hX : AllReal X) (hW : AllReal W) (p : Fin 512) (q : Fin 128) (P : Fin 4096)
    (ha : ∀ j : Fin 4096, a (ix2 p j) = A (ix2 P j))
    (hx : ∀ (j : Fin 4096) (k : Fin 128), x (ix2 j k) = X (ix2 j k))
    (hw : ∀ (k l : Fin 128), w (ix2 k l) = W (ix2 k l)) :
    k0_pay1 (F := Ideal) a x w (ix2 p q) = received X A W P q := by
  have hx' : AllReal x := fun i => by
    obtain ⟨j, k, rfl⟩ : ∃ (j : Fin 4096) (k : Fin 128), i = ix2 j k := ⟨i 0, i 1, eq_ix2 i⟩
    rw [hx]; exact hX _
  have hw' : AllReal w := fun i => by
    obtain ⟨k, l, rfl⟩ : ∃ (k l : Fin 128), i = ix2 k l := ⟨i 0, i 1, eq_ix2 i⟩
    rw [hw]; exact hW _
  rw [stored_entry_regrouped a x w hx' hw' p q]
  unfold received
  simp only [ha, hx, hw]

/-- What grid point t writes back is rows 512·t … of the neighbour sum of the argument arrays. -/
theorem written_block (c : Dev nD) (hX : AllReal (V m c main_arg0)) (hW : AllReal (V m c main_arg2)) (t : Fin cfg0.N) :
    (dats m 0 c).flushed 3 t
      = ((cfg0.win 3).blk t).view.read (Elt Ideal) (aggregate (V m c main_arg0) (V m c main_arg1) (V m c main_arg2)) := by
  rw [Value.flushed3]
  unfold out0_3
  rw [View.canon_unit_zero zero_offsets]
  simp only [View.ld_unit_zero (S := S512x4096) zero_offsets, View.ld_unit_zero (S := S4096x128) zero_offsets,
    View.ld_unit_zero (S := S128x128) zero_offsets]
  obtain ⟨e00, e01, e10, e11, e20, e21, e30, e31⟩ := block_indices t
  have ht : t.val < 8 := lt_of_lt_of_eq t.isLt N_0
  funext y
  obtain ⟨p, q, rfl⟩ : ∃ (p : Fin 512) (q : Fin 128), y = ix2 p q := ⟨y 0, y 1, eq_ix2 y⟩
  show k0_pay1 (iblk m c 2 t) (iblk m c 0 t) (iblk m c 1 t) (ix2 p q)
    = aggregate (V m c main_arg0) (V m c main_arg1) (V m c main_arg2) (((cfg0.win 3).blk t).view.emb (ix2 p q))
  have hp : p.val < 512 := p.isLt
  have hi : ((cfg0.win 3).blk t).view.emb (ix2 p q) = ix2 (⟨t.val * 512 + p.val, by omega⟩ : Fin 4096) q := by
    funext d; apply Fin.ext
    match d with
    | ⟨0, _⟩ => show win0_3.index t (0 : Fin 2) * 512 + 1 * p.val = t.val * 512 + p.val; omega
    | ⟨1, _⟩ => show win0_3.index t (1 : Fin 2) * 128 + 1 * q.val = q.val; omega
  rw [hi, aggregate_entry]
  refine block_entry _ _ _ _ _ _ hX hW p q _ ?_ ?_ ?_
  · intro j
    show V m c main_arg1 (((cfg0.win 2).blk t).view.emb (ix2 p j)) = V m c main_arg1 (ix2 _ j)
    refine congrArg _ (funext fun d => Fin.ext ?_)
    match d with
    | ⟨0, _⟩ => show win0_2.index t (0 : Fin 2) * 512 + 1 * p.val = t.val * 512 + p.val; omega
    | ⟨1, _⟩ => show win0_2.index t (1 : Fin 2) * 4096 + 1 * j.val = j.val; omega
  · intro j k
    show V m c main_arg0 (((cfg0.win 0).blk t).view.emb (ix2 j k)) = V m c main_arg0 (ix2 j k)
    refine congrArg _ (funext fun d => Fin.ext ?_)
    match d with
    | ⟨0, _⟩ => show win0_0.index t (0 : Fin 2) * 4096 + 1 * j.val = j.val; omega
    | ⟨1, _⟩ => show win0_0.index t (1 : Fin 2) * 128 + 1 * k.val = k.val; omega
  · intro k l
    show V m c main_arg2 (((cfg0.win 1).blk t).view.emb (ix2 k l)) = V m c main_arg2 (ix2 k l)
    refine congrArg _ (funext fun d => Fin.ext ?_)
    match d with
    | ⟨0, _⟩ => show win0_1.index t (0 : Fin 2) * 128 + 1 * k.val = k.val; omega
    | ⟨1, _⟩ => show win0_1.index t (1 : Fin 2) * 128 + 1 * l.val = l.val; omega

/-- An index of the result array lies in point t's block iff each coordinate lies in the block's range on its axis. -/
theorem mem_block (t : Fin cfg0.N) (i : S4096x128.Idx) :
    i ∈ ((cfg0.win 3).blk t).view.set
      ↔ ∀ a : Fin 2, win0_3.index t a * S512x128.size a ≤ (i a).val
          ∧ (i a).val < win0_3.index t a * S512x128.size a + S512x128.size a := by
  show i ∈ ((View.whole main_v0).slice (win0_3.rect t)).set ↔ _
  rw [View.set_slice_whole, Rect.mem_set_unit]
  exact Iff.rfl

/-- The row blocks tile the result array: row r lies in the block of point r / 512. -/
theorem rows_covered (i : S4096x128.Idx) :
    ∃ t : Fin cfg0.N, (cfg0.win 3).flush t = true ∧ i ∈ ((cfg0.win 3).blk t).view.set := by
  have hi0 : (i 0).val < 4096 := (i 0).isLt
  have hi1 : (i 1).val < 128 := (i 1).isLt
  have hlt : (i 0).val / 512 < cfg0.N := lt_of_lt_of_eq (by omega : (i 0).val / 512 < 8) N_0.symm
  obtain ⟨-, -, -, -, -, -, e30, e31⟩ := block_indices ⟨(i 0).val / 512, hlt⟩
  have e30' : win0_3.index ⟨(i 0).val / 512, hlt⟩ (0 : Fin 2) = (i 0).val / 512 := e30
  refine ⟨⟨(i 0).val / 512, hlt⟩, flush0_3 _, ?_⟩
  rw [mem_block]
  intro a
  match a with
  | ⟨0, _⟩ =>
    show win0_3.index ⟨(i 0).val / 512, hlt⟩ (0 : Fin 2) * 512 ≤ (i 0).val
      ∧ (i 0).val < win0_3.index ⟨(i 0).val / 512, hlt⟩ (0 : Fin 2) * 512 + 512
    omega
  | ⟨1, _⟩ =>
    show win0_3.index ⟨(i 0).val / 512, hlt⟩ (1 : Fin 2) * 128 ≤ (i 1).val
      ∧ (i 1).val < win0_3.index ⟨(i 0).val / 512, hlt⟩ (1 : Fin 2) * 128 + 128
    omega

/-- After the run the result array is the neighbour sum of the argument arrays, when features and weights are real. -/
theorem result_array (c : Dev nD) (hX : AllReal (V m c main_arg0)) (hW : AllReal (V m c main_arg2)) :
    (dats m 0 c).arrAt 3 cfg0.N = aggregate (V m c main_arg0) (V m c main_arg1) (V m c main_arg2) :=
  (dats m 0 c).arrAt_eq_of_cover 3 (aggregate (V m c main_arg0) (V m c main_arg1) (V m c main_arg2))
    (fun t _ => written_block m c hX hW t) rows_covered

end Cert.KernelIdeal.Neighbours

end
-- ==== Proof.lean ====
/-
  A graph-convolution step, out = (adj ≠ 0) · (x · w), against a kernel that streams the adjacency array in 8 blocks of
  512 rows and computes ((adj ≠ 0) · x) · w on each block.

  Both programs turn the adjacency entries into edge indicators (1 where the entry is not zero, else 0; the two
  spellings — an unordered comparison read unsigned, an ordered one widened and read signed — are one function of an
  extended real). The reference multiplies features by weights first and then sums over neighbours: entry (i, l) is
  Σ_j edge(adj[i, j]) · Σ_k x[j, k] · w[k, l]. The kernel sums the neighbours' feature rows first and applies the
  weights once: Σ_k (Σ_j edge(adj[i, j]) · x[j, k]) · w[k, l], for the rows of its block. With real features and
  weights these are the same number (a product distributes over a finite sum of reals; a finite double sum can be taken
  in either order), and the precondition says every input entry is real. The kernel's 8 row blocks tile the 4096 rows,
  so its result array is the same function of the three arguments as the reference's.

  The three frames: the kernel's at both instances are the generated frame runs; the reference's is its generated run
  with the result dropped. The idealization rewrote no operation, so there is nothing to preserve beyond the text.
-/
import proofs.«107348_g36532991820137_cont_8to1_b_609_13_alg».proof.Defs
import proofs.«107348_g36532991820137_cont_8to1_b_609_13_alg».proof.Proof.Gen.Kernel
import proofs.«107348_g36532991820137_cont_8to1_b_609_13_alg».proof.Proof.Gen.Kernel.Frame
import proofs.«107348_g36532991820137_cont_8to1_b_609_13_alg».proof.Proof.Gen.KernelIdeal
import proofs.«107348_g36532991820137_cont_8to1_b_609_13_alg».proof.Proof.Gen.KernelIdeal.Frame
import proofs.«107348_g36532991820137_cont_8to1_b_609_13_alg».proof.Proof.Gen.KernelIdeal.Value
import proofs.«107348_g36532991820137_cont_8to1_b_609_13_alg».proof.Proof.Gen.ReferenceIdeal
import proofs.«107348_g36532991820137_cont_8to1_b_609_13_alg».proof.Proof.Gen.ReferenceIdeal.Run
import proofs.«107348_g36532991820137_cont_8to1_b_609_13_alg».proof.Proof.Gen.ReferenceIdeal.Read
import proofs.«107348_g36532991820137_cont_8to1_b_609_13_alg».proof.Proof.Gen.Pre_finite_inputs
import proofs.«107348_g36532991820137_cont_8to1_b_609_13_alg».proof.Proof.NeighbourSum
import proofs.«107348_g36532991820137_cont_8to1_b_609_13_alg».proof.Proof.RealInputs
import proofs.«107348_g36532991820137_cont_8to1_b_609_13_alg».proof.Proof.ReferenceSide
import proofs.«107348_g36532991820137_cont_8to1_b_609_13_alg».proof.Proof.KernelResult
import Idealize.ShloMosaic.Adequacy
import Idealize.ShloMosaic.Init

noncomputable section

namespace Cert.Proof

open Idealize.ShloMosaic Idealize.ShloMosaic.TcCoe Idealize.SL.Sem Cert.NeighbourSum

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both idealized programs end with the result array at the neighbour sum of the (agreeing, real) argument arrays: the
    kernel block by block over its 8 row blocks, the reference as its last product read entry by entry. -/
theorem algebraic : Cert.algebraic_KernelIdeal_ReferenceIdeal := by
  intro m ρ m' ρ' hpre hagree
  have hreal := fun c : Dev Cert.KernelIdeal.nD => Cert.RealInputs.all_real _ _ _ (hpre c)
  refine ⟨fun c => aggregate
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Neighbours.result_array m c (hreal c).1 (hreal c).2.2), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    exact (Cert.ReferenceIdeal.Read.val_main_v4_eq _ _ _).trans (Cert.ReferenceIdeal.Neighbours.result_eq _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
